-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S50000x16x256 : Shape := ⟨3, ![50000, 16, 256]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S50000x16x256 : S_.BroadcastsInDim S50000x16x256 (![] : Fin 0 → Fin S50000x16x256.rank)
  reducesTo_S50000x16x256_S_d0_1_2 : S50000x16x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S50000x256 .f32) (main_arg1 : FVec F S50000x16x256 .f32) (main_arg2 : FVec F S256x256 .f32) (main_arg3 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x16x256 .f32 := Host.absf main_arg1
  let main_cst_0 : FVec F S_ .f32 := constant S_ .f32 0x7F800000#32
  let main_v5 : FVec F S50000x16x256 .f32 := broadcastInDim S50000x16x256 ![] bcast_S_S50000x16x256 main_cst_0
  let main_v6 : IVec S50000x16x256 1 := cmpf .olt main_v4 main_v5
  let main_c_1 : IVec S_ 1 := constantI S_ 1 1#1
  let main_v7 : IVec S_ 1 := (fun x v => Host.reduce IntOp.andi x v reducesTo_S50000x16x256_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S50000x256 : Shape := ⟨2, ![50000, 256]⟩
abbrev S50000x16x256 : Shape := ⟨3, ![50000, 16, 256]⟩
abbrev S256x256 : Shape := ⟨2, ![256, 256]⟩
abbrev S256 : Shape := ⟨1, ![256]⟩
abbrev S1x256 : Shape := ⟨2, ![1, 256]⟩
abbrev S1000x16x256 : Shape := ⟨3, ![1000, 16, 256]⟩
abbrev S1000x256 : Shape := ⟨2, ![1000, 256]⟩
abbrev S200x16x256 : Shape := ⟨3, ![200, 16, 256]⟩
abbrev S200x256 : Shape := ⟨2, ![200, 256]⟩

abbrev nBuf : Space → Nat
  | .hbm => 6
  | .vmem => 8
  | .smem => 0
  | _ => 0

abbrev bufTy : (tb : Table) → Fin (tcTables nBuf tb) → BufTy
  | .hbm, ⟨0, _⟩ => ⟨S50000x256, .f32⟩
  | .hbm, ⟨1, _⟩ => ⟨S50000x16x256, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S50000x256, .f32⟩
  | .local _ .vmem, ⟨0, _⟩ => ⟨S1000x16x256, .f32⟩
  | .local _ .vmem, ⟨1, _⟩ => ⟨S1000x16x256, .f32⟩
  | .local _ .vmem, ⟨2, _⟩ => ⟨S1000x256, .f32⟩
  | .local _ .vmem, ⟨3, _⟩ => ⟨S1000x256, .f32⟩
  | .local _ .vmem, ⟨4, _⟩ => ⟨S256x256, .f32⟩
  | .local _ .vmem, ⟨5, _⟩ => ⟨S1x256, .f32⟩
  | .local _ .vmem, ⟨6, _⟩ => ⟨S1000x256, .f32⟩
  | .local _ .vmem, ⟨7, _⟩ => ⟨S1000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S256_S1x256 : S256.ShapeCasts S1x256
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1000x16x256_S200x16x256_0_0_0 : ∀ a, (![0, 0, 0] : Fin 3 → Nat) a + S200x16x256.size a ≤ S1000x16x256.size a
  h_S200x16x256 : 0 < S200x16x256.numel
  inb_S1000x256_S200x256_0_0 : ∀ a, (![0, 0] : Fin 2 → Nat) a + S200x256.size a ≤ S1000x256.size a
  h_S200x256 : 0 < S200x256.numel
  reduces_S200x16x256_S200x256 : S200x16x256.Reduces [1] S200x256
  broadcasts_S1x256_S200x256 : S1x256.Broadcasts S200x256
  inb_S1000x16x256_S200x16x256_200_0_0 : ∀ a, (![200, 0, 0] : Fin 3 → Nat) a + S200x16x256.size a ≤ S1000x16x256.size a
  inb_S1000x256_S200x256_200_0 : ∀ a, (![200, 0] : Fin 2 → Nat) a + S200x256.size a ≤ S1000x256.size a
  inb_S1000x16x256_S200x16x256_400_0_0 : ∀ a, (![400, 0, 0] : Fin 3 → Nat) a + S200x16x256.size a ≤ S1000x16x256.size a
  inb_S1000x256_S200x256_400_0 : ∀ a, (![400, 0] : Fin 2 → Nat) a + S200x256.size a ≤ S1000x256.size a
  inb_S1000x16x256_S200x16x256_600_0_0 : ∀ a, (![600, 0, 0] : Fin 3 → Nat) a + S200x16x256.size a ≤ S1000x16x256.size a
  inb_S1000x256_S200x256_600_0 : ∀ a, (![600, 0] : Fin 2 → Nat) a + S200x256.size a ≤ S1000x256.size a
  inb_S1000x16x256_S200x16x256_800_0_0 : ∀ a, (![800, 0, 0] : Fin 3 → Nat) a + S200x16x256.size a ≤ S1000x16x256.size a
  inb_S1000x256_S200x256_800_0 : ∀ a, (![800, 0] : Fin 2 → Nat) a + S200x256.size a ≤ S1000x256.size a
  dot_S200x256_S256x256_S200x256_1_0_0_1_n_n_wf : DotDims.WF S200x256 S256x256 S200x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x16x256.size a ≤ S50000x16x256.size a
  hwx0_0 : ∀ i : grid0.Coords, EltTy.bits .f32 = 32 ∨ (Rect.block (s := S50000x16x256) S1000x16x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x256.size a ≤ S50000x256.size a
  hwx0_1 : ∀ i : grid0.Coords, EltTy.bits .f32 = 32 ∨ (Rect.block (s := S50000x256) S1000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x256.size a ≤ S50000x256.size a
  hwx0_4 : ∀ i : grid0.Coords, EltTy.bits .f32 = 32 ∨ (Rect.block (s := S50000x256) S1000x256.size (cc0_transform_4 i) (hinb0_4 i)).WholeWords (EltTy.packing .f32)

variable [Facts₀]

def dot_S200x256_S256x256_S200x256_1_0_0_1_n_n : DotDims S200x256 S256x256 S200x256 where
  lhsContracting := [1]
  rhsContracting := [0]
  lhsNonContracting := [0]
  rhsNonContracting := [1]
  lhsBatch := []
  rhsBatch := []
  wf := dot_S200x256_S256x256_S200x256_1_0_0_1_n_n_wf

abbrev win0_0 : Pipeline.Window sig grid0 :=
  Pipeline.Window.ofSpec (Memref.whole main_arg1) S1000x16x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1000x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x256 : Shape := ⟨2, ![50000, 256]⟩
abbrev S50000x16x256 : Shape := ⟨3, ![50000, 16, 256]⟩
abbrev S256x256 : Shape := ⟨2, ![256, 256]⟩
abbrev S256 : Shape := ⟨1, ![256]⟩
abbrev S_ : Shape := ⟨0, ![]⟩
abbrev S1x256 : Shape := ⟨2, ![1, 256]⟩

abbrev nBuf : Space → Nat
  | .hbm => 17
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000x16x256, .f32⟩
  | .hbm, ⟨2, _⟩ => ⟨S256x256, .f32⟩
  | .hbm, ⟨3, _⟩ => ⟨S256, .f32⟩
  | .hbm, ⟨4, _⟩ => ⟨S_, .f32⟩
  | .hbm, ⟨5, _⟩ => ⟨S50000x256, .f32⟩
  | .hbm, ⟨6, _⟩ => ⟨S_, .f32⟩
  | .hbm, ⟨7, _⟩ => ⟨S50000x256, .f32⟩
  | .hbm, ⟨8, _⟩ => ⟨S50000x256, .f32⟩
  | .hbm, ⟨9, _⟩ => ⟨S50000x256, .f32⟩
  | .hbm, ⟨10, _⟩ => ⟨S50000x256, .f32⟩
  | .hbm, ⟨11, _⟩ => ⟨S1x256, .f32⟩
  | .hbm, ⟨12, _⟩ => ⟨S50000x256, .f32⟩
  | .hbm, ⟨13, _⟩ => ⟨S50000x256, .f32⟩
  | .hbm, ⟨14, _⟩ => ⟨S_, .f32⟩
  | .hbm, ⟨15, _⟩ => ⟨S50000x256, .f32⟩
  | .hbm, ⟨16, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_v8 : Ref sig .tc := ⟨.hbm, 16, rfl⟩

abbrev nD : Nat := 1
abbrev τ : Topo := Topo.v7x

variable {F : FTy → Type} [FloatOps F]

class Facts₀ : Prop where
  reducesTo_S50000x16x256_S50000x256_d1 : S50000x16x256.ReducesTo [1] S50000x256
  h_S_ : 0 < S_.numel
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x256_S256x256_S50000x256_1_0_0_1_n_n_wf : DotDims.WF S50000x256 S256x256 S50000x256 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.Layer.lean ====
/-
  The layer both programs compute, on the extended reals, one output entry at a time.

  For node `n` and output feature `o`,

      out[n, o] = max (Σ_k (features[n, k] + (Σ_j neighbours[n, j, k]) / 16) · W[k, o] + bias[o]) 0 :

  the mean of the sixteen neighbour rows is added to the node's own row, the result goes through the dense
  layer, and the rectifier clips at zero. The divisor 16 and the rectifier's zero are kept as the bit
  patterns both programs print; neither is ever evaluated, because each side carries the same word.
-/
import Idealize.ShloMosaic.PureOps.Ideal
import Idealize.ShloMosaic.Lib.ValueIdx

noncomputable section

open scoped BigOperators

namespace Cert.AggLayer

open Idealize.ShloMosaic Idealize.ShloMosaic.ValueIdx

/-- One output entry from the data it depends on: the node's own row `x`, its sixteen neighbour rows `e`,
    one column `w` of the weights and one bias entry `β`. -/
def rowValue (x : Fin 256 → EReal) (e : Fin 16 → Fin 256 → EReal) (w : Fin 256 → EReal) (β : EReal) : EReal :=
  max ((∑ k : Fin 256, (x k + Ideal.div (∑ j : Fin 16, e j k) (Ideal.ofBits .f32 0x41800000#32)) * w k) + β)
    (Ideal.ofBits .f32 0x00000000#32)

/-- The entry at node `n`, output feature `o`, of the whole arrays. -/
def entry (feat : (⟨2, ![50000, 256]⟩ : Shape).Idx → EReal) (nbr : (⟨3, ![50000, 16, 256]⟩ : Shape).Idx → EReal)
    (W : (⟨2, ![256, 256]⟩ : Shape).Idx → EReal) (bias : (⟨1, ![256]⟩ : Shape).Idx → EReal)
    (n : Fin 50000) (o : Fin 256) : EReal :=
  rowValue (fun k => feat (ix2 n k)) (fun j k => nbr (ix3 n j k)) (fun k => W (ix2 k o)) (bias (ix1 o))

/-- The layer's output array. -/
def layer (feat : (⟨2, ![50000, 256]⟩ : Shape).Idx → EReal) (nbr : (⟨3, ![50000, 16, 256]⟩ : Shape).Idx → EReal)
    (W : (⟨2, ![256, 256]⟩ : Shape).Idx → EReal) (bias : (⟨1, ![256]⟩ : Shape).Idx → EReal) :
    (⟨2, ![50000, 256]⟩ : Shape).Idx → EReal :=
  fun i => entry feat nbr W bias (i 0) (i 1)

theorem layer_apply (feat : (⟨2, ![50000, 256]⟩ : Shape).Idx → EReal) (nbr : (⟨3, ![50000, 16, 256]⟩ : Shape).Idx → EReal)
    (W : (⟨2, ![256, 256]⟩ : Shape).Idx → EReal) (bias : (⟨1, ![256]⟩ : Shape).Idx → EReal) (n : Fin 50000) (o : Fin 256) :
    layer feat nbr W bias (ix2 n o) = entry feat nbr W bias n o := rfl

end Cert.AggLayer

end
-- ==== Proof.RefLayer.lean ====
/-
  The reference computes the layer. Its operations are read one at a time at an output entry (n, o): the
  rectifier and the bias add are entrywise, the dense product is a sum over the 256 input features of the
  summed row at (n, k) times W at (k, o), the summed row is the node's own entry plus the neighbour sum
  divided by 16, and the neighbour sum starts from the additive unit, which vanishes.
-/
import proofs.«178276_j64364379897856_2_alg».proof.Proof.Gen.ReferenceIdeal.Read
import proofs.«178276_j64364379897856_2_alg».proof.Proof.Layer

noncomputable section

open scoped BigOperators

namespace Cert.ReferenceIdeal.RefLayer

open Cert.ReferenceIdeal Cert.ReferenceIdeal.Read Cert.AggLayer
open Idealize.ShloMosaic Idealize.ShloMosaic.ValueIdx

/-- The summed row the dense layer multiplies: at (n, k), the node's own entry plus the mean of its neighbours'. -/
theorem summedRow_apply (x0 : (⟨S50000x256, .f32⟩ : BufTy).Contents (Elt Ideal)) (x1 : (⟨S50000x16x256, .f32⟩ : BufTy).Contents (Elt Ideal))
    (n : Fin 50000) (k : Fin 256) :
    val_main_v3 (F := Ideal) x0 x1 (ix2 n k)
      = x0 (ix2 n k) + Ideal.div (∑ j : Fin 16, x1 (ix3 n j k)) (Ideal.ofBits .f32 0x41800000#32) := by
  rw [val_main_v3_apply, val_main_v2_apply, val_main_v0_apply, val_main_v1_apply, val_main_cst_0_apply, val_main_cst_apply]
  show x0 (ix2 n k) + Ideal.div (Ideal.ofBits .f32 0x00000000#32 + ∑ j : Fin 16, x1 (idx_main_v0 (ix2 n k) j)) (Ideal.ofBits .f32 0x41800000#32) = _
  rw [Ideal.ofBits_zero_f32, zero_add]
  refine congrArg (fun s => x0 (ix2 n k) + Ideal.div s (Ideal.ofBits .f32 0x41800000#32)) (Finset.sum_congr rfl fun j _ => ?_)
  exact congrArg x1 (funext fun a => Fin.ext (by match a with | ⟨0, _⟩ => rfl | ⟨1, _⟩ => rfl | ⟨2, _⟩ => rfl))

/-- The reference's result array is the layer of its four arguments. -/
theorem result_eq (x0 : (⟨S50000x256, .f32⟩ : BufTy).Contents (Elt Ideal)) (x1 : (⟨S50000x16x256, .f32⟩ : BufTy).Contents (Elt Ideal))
    (x2 : (⟨S256x256, .f32⟩ : BufTy).Contents (Elt Ideal)) (x3 : (⟨S256, .f32⟩ : BufTy).Contents (Elt Ideal)) :
    val_main_v8 (F := Ideal) x0 x1 x2 x3 = layer x0 x1 x2 x3 := by
  funext i
  obtain ⟨n, o, rfl⟩ : ∃ (n : Fin 50000) (o : Fin 256), i = ix2 n o := ⟨i 0, i 1, eq_ix2 i⟩
  rw [layer_apply, val_main_v8_apply, val_main_v7_apply, val_main_v4_apply, val_main_v6_apply, val_main_v5_apply,
    val_main_call0_v0_apply, val_main_call0_cst_apply]
  show max ((∑ k : Fin 256, val_main_v3 (F := Ideal) x0 x1 (lidx_main_v4 (ix2 n o) k) * x2 (ridx_main_v4 (ix2 n o) k))
      + x3 (idx_main_v5 (idx_main_v6 (ix2 n o)))) (Ideal.ofBits .f32 0x00000000#32) = _
  unfold entry rowValue
  refine congrArg₂ max (congrArg₂ (· + ·) (Finset.sum_congr rfl fun k _ => ?_) ?_) rfl
  · have hl : lidx_main_v4 (ix2 n o) k = ix2 n k :=
      funext fun a => Fin.ext (by match a with | ⟨0, _⟩ => rfl | ⟨1, _⟩ => rfl)
    have hr : ridx_main_v4 (ix2 n o) k = ix2 k o :=
      funext fun a => Fin.ext (by match a with | ⟨0, _⟩ => rfl | ⟨1, _⟩ => rfl)
    rw [hl, hr, summedRow_apply]
  · exact congrArg x3 (funext fun a => Fin.ext (by match a with | ⟨0, _⟩ => rfl))

end Cert.ReferenceIdeal.RefLayer

end
-- ==== Proof.ChunkValue.lean ====
/-
  One chunk of the kernel's body, read at an entry.

  The body works through its block of 1000 nodes in five chunks of 200 rows. Each chunk is the same term of
  what it loads: the 200 × 16 × 256 neighbour rows are summed over the neighbour axis and divided by 16, the
  200 × 256 rows of own features are added, the sum is multiplied into the 256 × 256 weights with a zero
  accumulator, the 1 × 256 bias row is broadcast over the rows and added, and the rectifier clips at zero.
  The two changes of float format on the way are the identity on the extended reals. So at row `p`, column
  `q` of a chunk the result is the layer's entry formed from row `p` of the loads, column `q` of the
  weights and entry `q` of the bias row.
-/
import proofs.«178276_j64364379897856_2_alg».proof.Proof.Gen.KernelIdeal.Skeleton
import proofs.«178276_j64364379897856_2_alg».proof.Proof.Layer
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Chunk

open Cert.KernelIdeal Cert.KernelIdeal.Gen Cert.AggLayer
open Idealize.ShloMosaic Idealize.ShloMosaic.ValueIdx Idealize.ShloMosaic.TcCoe

/-! ## The two reductions at an entry -/

/-- The sum over the neighbour axis of a chunk's 200 × 16 × 256 rows, at (p, k): the sixteen entries (p, j, k). -/
theorem neighbourSum_apply (E : FVec Ideal S200x16x256 .f32) (p : Fin 200) (k : Fin 256) :
    multiReduction .add [1] S200x256 E 0x00000000#32 reduces_S200x16x256_S200x256 (.inl rfl) rfl (ix2 p k)
      = ∑ j : Fin 16, E (ix3 p j k) :=
  (Ideal.multiReduction_add_single E 0x00000000#32 reduces_S200x16x256_S200x256 (.inl rfl) rfl (ix2 p k)).trans
    (Finset.sum_congr rfl fun j _ => congrArg E (funext fun a => Fin.ext (by
      match a with | ⟨0, _⟩ => rfl | ⟨1, _⟩ => rfl | ⟨2, _⟩ => rfl)))

theorem lhs_row (i : S200x256.Idx) (c : dot_S200x256_S256x256_S200x256_1_0_0_1_n_n.contr.Idx) :
    (dot_S200x256_S256x256_S200x256_1_0_0_1_n_n.lhsIdx i c 0).val = (i 0).val := by
  unfold DotDims.lhsIdx
  rw [dif_neg (show ¬(0 : Fin S200x256.rank) ∈ dot_S200x256_S256x256_S200x256_1_0_0_1_n_n.lhsBatch by decide),
    dif_pos (show (0 : Fin S200x256.rank) ∈ dot_S200x256_S256x256_S200x256_1_0_0_1_n_n.lhsNonContracting by decide)]
  rfl

theorem rhs_col (i : S200x256.Idx) (c : dot_S200x256_S256x256_S200x256_1_0_0_1_n_n.contr.Idx) :
    (dot_S200x256_S256x256_S200x256_1_0_0_1_n_n.rhsIdx i c 1).val = (i 1).val := by
  unfold DotDims.rhsIdx
  rw [dif_neg (show ¬(1 : Fin S256x256.rank) ∈ dot_S200x256_S256x256_S200x256_1_0_0_1_n_n.rhsBatch by decide),
    dif_pos (show (1 : Fin S256x256.rank) ∈ dot_S200x256_S256x256_S200x256_1_0_0_1_n_n.rhsNonContracting by decide)]
  rfl

/-- The product of a chunk's 200 × 256 rows with the 256 × 256 weights into a zero accumulator, at (p, q):
    the sum over the contracted feature `k` of row entry (p, k) times weight (k, q). -/
theorem dense_apply (L : FVec Ideal S200x256 .bf16) (R : FVec Ideal S256x256 .bf16) (p : Fin 200) (q : Fin 256) :
    matmul dot_S200x256_S256x256_S200x256_1_0_0_1_n_n none L R (constant (F := Ideal) S200x256 .f32 0x00000000#32) (ix2 p q)
      = ∑ k : Fin 256, L (ix2 p k) * R (ix2 k q) := by
  simp only [matmul]
  rw [Ideal.matmul_constant_zero_apply,
    ← Equiv.sum_comp (contrEquiv1 dot_S200x256_S256x256_S200x256_1_0_0_1_n_n 256 rfl rfl).symm]
  refine Finset.sum_congr rfl fun k _ => ?_
  have hk := contrEquiv1_symm_val dot_S200x256_S256x256_S200x256_1_0_0_1_n_n 256 rfl rfl k
  have el : dot_S200x256_S256x256_S200x256_1_0_0_1_n_n.lhsIdx (ix2 p q)
      ((contrEquiv1 dot_S200x256_S256x256_S200x256_1_0_0_1_n_n 256 rfl rfl).symm k) = ix2 p k :=
    funext fun a => Fin.ext (by
      match a with
      | ⟨0, _⟩ => exact lhs_row _ _
      | ⟨1, _⟩ => exact (dot_S200x256_S256x256_S200x256_1_0_0_1_n_n.lhsIdx_val_of_single rfl _ _).trans hk)
  have er : dot_S200x256_S256x256_S200x256_1_0_0_1_n_n.rhsIdx (ix2 p q)
      ((contrEquiv1 dot_S200x256_S256x256_S200x256_1_0_0_1_n_n 256 rfl rfl).symm k) = ix2 k q :=
    funext fun a => Fin.ext (by
      match a with
      | ⟨0, _⟩ => exact (dot_S200x256_S256x256_S200x256_1_0_0_1_n_n.rhsIdx_val_of_single rfl _ _).trans hk
      | ⟨1, _⟩ => exact rhs_col _ _)
  rw [el, er]

/-! ## A chunk -/

/-- A chunk's result as one term of the weights in their multiplied format, the bias row, the chunk's neighbour rows
    and its own rows. -/
def chunk (Wb : FVec Ideal S256x256 .bf16) (b : FVec Ideal S1x256 .f32) (E : FVec Ideal S200x16x256 .f32)
    (X : FVec Ideal S200x256 .f32) : FVec Ideal S200x256 .f32 :=
  maximumf
    (addf
      (matmul dot_S200x256_S256x256_S200x256_1_0_0_1_n_n none
        (truncf .bf16
          (addf X (divf (multiReduction .add [1] S200x256 E 0x00000000#32 reduces_S200x16x256_S200x256 (.inl rfl) rfl)
            (broadcast S200x256 (Scalar.ofBits (F := Ideal) .f32 0x41800000#32))))
          bitsLt_bf16_f32)
        Wb (constant (F := Ideal) S200x256 .f32 0x00000000#32))
      (broadcastTo S200x256 b broadcasts_S1x256_S200x256))
    (broadcast S200x256 (Scalar.ofBits (F := Ideal) .f32 0x00000000#32))

/-- A chunk at row `p`, column `q`: the layer's entry of row `p` of its loads, column `q` of the weights and entry
    `q` of the bias row. -/
theorem chunk_apply (Wb : FVec Ideal S256x256 .bf16) (b : FVec Ideal S1x256 .f32) (E : FVec Ideal S200x16x256 .f32)
    (X : FVec Ideal S200x256 .f32) (p : Fin 200) (q : Fin 256) :
    chunk Wb b E X (ix2 p q)
      = rowValue (fun k => X (ix2 p k)) (fun j k => E (ix3 p j k)) (fun k => Wb (ix2 k q)) (b (ix2 (0 : Fin 1) q)) := by
  unfold chunk rowValue
  refine congrArg₂ max (congrArg₂ (· + ·) ?_ ?_) rfl
  · refine (dense_apply _ Wb p q).trans (Finset.sum_congr rfl fun k _ => ?_)
    refine congrArg (fun s => (X (ix2 p k) + Ideal.div s (Ideal.ofBits .f32 0x41800000#32)) * Wb (ix2 k q)) ?_
    exact neighbourSum_apply E p k
  · exact broadcastTo_1b_ab_apply b broadcasts_S1x256_S200x256 p q

/-! ## The five stored values are chunks -/

theorem weights_apply (W : Vec Ideal S256x256 .f32) (i : S256x256.Idx) : k0_pay2 W i = W i := rfl

theorem biasRow_eq (b : Vec Ideal S1x256 .f32) : k0_pay3 b = b := by
  unfold k0_pay3
  exact shapeCast_self b shapeCasts_S1x256_S1x256

theorem stored0_eq (W : Vec Ideal S256x256 .f32) (b : Vec Ideal S1x256 .f32) (E : Vec Ideal S200x16x256 .f32)
    (X : Vec Ideal S200x256 .f32) : k0_pay4 W b E X = chunk (k0_pay2 W) (k0_pay3 b) E X := rfl

theorem stored1_eq (W : Vec Ideal S256x256 .f32) (b : Vec Ideal S1x256 .f32) (E : Vec Ideal S200x16x256 .f32)
    (X : Vec Ideal S200x256 .f32) : k0_pay5 W b E X = chunk (k0_pay2 W) (k0_pay3 b) E X := rfl

theorem stored2_eq (Wb : FVec Ideal S256x256 .bf16) (b : FVec Ideal S1x256 .f32) (E : Vec Ideal S200x16x256 .f32)
    (X : Vec Ideal S200x256 .f32) : k0_pay6 Wb b E X = chunk Wb b E X := rfl

theorem stored3_eq (Wb : FVec Ideal S256x256 .bf16) (b : FVec Ideal S1x256 .f32) (E : Vec Ideal S200x16x256 .f32)
    (X : Vec Ideal S200x256 .f32) : k0_pay7 Wb b E X = chunk Wb b E X := rfl

theorem stored4_eq (Wb : FVec Ideal S256x256 .bf16) (b : FVec Ideal S1x256 .f32) (E : Vec Ideal S200x16x256 .f32)
    (X : Vec Ideal S200x256 .f32) : k0_pay1 Wb b X (k0_pay8 E) (k0_pay9 (F := Ideal)) = chunk Wb b E X := rfl

end Cert.KernelIdeal.Chunk

end
-- ==== Proof.BlockValue.lean ====
/-
  What the body leaves in the output block, as one function of the input blocks.

  The body's five stores write rows 0–199, 200–399, …, 800–999 of the 1000 × 256 output block, each the chunk
  of the same rows of the two row-blocked inputs. A chunk's entry depends only on its own row of the loads, so
  the five stores are tiles of ONE function of the block's row `r` and column `q`: the layer's entry formed
  from row `r` of the block's own features and neighbour rows, column `q` of the weights and entry `q` of the
  bias row. The tiles cover the block, so that function is the block.
-/
import proofs.«178276_j64364379897856_2_alg».proof.Proof.Gen.KernelIdeal.Frame
import proofs.«178276_j64364379897856_2_alg».proof.Proof.ChunkValue

noncomputable section

open scoped BigOperators

namespace Cert.KernelIdeal.Block

open Cert.KernelIdeal Cert.KernelIdeal.Gen Cert.KernelIdeal.Chunk Cert.AggLayer
open Idealize.ShloMosaic Idealize.ShloMosaic.ValueIdx Idealize.ShloMosaic.TcCoe

/-- The output block's entry at row `r`, column `q`, from the four input blocks. -/
def blockEntry (x0 : Vec Ideal S1000x16x256 .f32) (x1 : Vec Ideal S1000x256 .f32) (x2 : Vec Ideal S256x256 .f32)
    (x3 : Vec Ideal S1x256 .f32) (r : Fin 1000) (q : Fin 256) : EReal :=
  rowValue (fun k => x1 (ix2 r k)) (fun j k => x0 (ix3 r j k)) (fun k => x2 (ix2 k q)) (x3 (ix2 (0 : Fin 1) q))

/-- The output block. -/
def blockFn (x0 : Vec Ideal S1000x16x256 .f32) (x1 : Vec Ideal S1000x256 .f32) (x2 : Vec Ideal S256x256 .f32)
    (x3 : Vec Ideal S1x256 .f32) : Vec Ideal S1000x256 .f32 :=
  fun y => blockEntry x0 x1 x2 x3 (y 0) (y 1)

/-! ## A tile of 200 rows starting at row `o` -/

/-- Row `p`, column `q` of the tile is row `o + p`, column `q` of the block. -/
theorem tile_emb (o : Nat) (inbX : ∀ a, (![o, 0] : Fin 2 → Nat) a + S200x256.size a ≤ S1000x256.size a)
    (ho : o + 200 ≤ 1000) (p : Fin 200) (q : Fin 256) :
    (Rect.unit (s := S1000x256) ![o, 0] S200x256.size inbX).emb (ix2 p q) = ix2 (⟨o + p.val, by omega⟩ : Fin 1000) q :=
  funext fun a => Fin.ext (by
    match a with
    | ⟨0, _⟩ => show o + 1 * p.val = o + p.val; omega
    | ⟨1, _⟩ => show 0 + 1 * q.val = q.val; omega)

/-- The tile's own features at (p, k) are the block's at (o + p, k). -/
theorem tile_rows (x1 : Vec Ideal S1000x256 .f32) (o : Nat)
    (inbX : ∀ a, (![o, 0] : Fin 2 → Nat) a + S200x256.size a ≤ S1000x256.size a) (ho : o + 200 ≤ 1000)
    (p : Fin 200) (k : Fin 256) :
    View.ld x1 (Rect.unit (s := S1000x256) ![o, 0] S200x256.size inbX) (ix2 p k) = x1 (ix2 (⟨o + p.val, by omega⟩ : Fin 1000) k) :=
  congrArg x1 (tile_emb o inbX ho p k)

/-- The tile's neighbour rows at (p, j, k) are the block's at (o + p, j, k). -/
theorem tile_nbrs (x0 : Vec Ideal S1000x16x256 .f32) (o : Nat)
    (inbE : ∀ a, (![o, 0, 0] : Fin 3 → Nat) a + S200x16x256.size a ≤ S1000x16x256.size a) (ho : o + 200 ≤ 1000)
    (p : Fin 200) (j : Fin 16) (k : Fin 256) :
    View.ld x0 (Rect.unit (s := S1000x16x256) ![o, 0, 0] S200x16x256.size inbE) (ix3 p j k)
      = x0 (ix3 (⟨o + p.val, by omega⟩ : Fin 1000) j k) :=
  congrArg x0 (funext fun a => Fin.ext (by
    match a with
    | ⟨0, _⟩ => show o + 1 * p.val = o + p.val; omega
    | ⟨1, _⟩ => show 0 + 1 * j.val = j.val; omega
    | ⟨2, _⟩ => show 0 + 1 * k.val = k.val; omega))

/-- The chunk of rows `o … o + 199` of the input blocks is that tile of the block function. -/
theorem tile_apply (x0 : Vec Ideal S1000x16x256 .f32) (x1 : Vec Ideal S1000x256 .f32) (x2 : Vec Ideal S256x256 .f32)
    (x3 : Vec Ideal S1x256 .f32) (o : Nat)
    (inbE : ∀ a, (![o, 0, 0] : Fin 3 → Nat) a + S200x16x256.size a ≤ S1000x16x256.size a)
    (inbX : ∀ a, (![o, 0] : Fin 2 → Nat) a + S200x256.size a ≤ S1000x256.size a) (ho : o + 200 ≤ 1000)
    (p : Fin 200) (q : Fin 256) :
    chunk (k0_pay2 x2) (k0_pay3 x3) (View.ld x0 (Rect.unit (s := S1000x16x256) ![o, 0, 0] S200x16x256.size inbE))
        (View.ld x1 (Rect.unit (s := S1000x256) ![o, 0] S200x256.size inbX)) (ix2 p q)
      = blockFn x0 x1 x2 x3 ((Rect.unit (s := S1000x256) ![o, 0] S200x256.size inbX).emb (ix2 p q)) := by
  rw [chunk_apply, biasRow_eq, tile_emb o inbX ho p q]
  show _ = blockEntry x0 x1 x2 x3 (⟨o + p.val, by omega⟩ : Fin 1000) q
  unfold blockEntry
  exact congrArg₂ (fun f g => rowValue f g (fun k => x2 (ix2 k q)) (x3 (ix2 (0 : Fin 1) q)))
    (funext fun k => tile_rows x1 o inbX ho p k) (funext fun j => funext fun k => tile_nbrs x0 o inbE ho p j k)

/-! ## The block -/

theorem zero2 : (![0, 0] : Fin 2 → Nat) = fun _ => 0 := funext fun a => by fin_cases a <;> rfl

/-- What the body leaves in the output's staging buffer is the block function of the input blocks. -/
theorem out_eq (x0 : Vec Ideal S1000x16x256 .f32) (x1 : Vec Ideal S1000x256 .f32) (x2 : Vec Ideal S256x256 .f32)
    (x3 : Vec Ideal S1x256 .f32) : out0_4 x0 x1 x2 x3 = blockFn x0 x1 x2 x3 := by
  funext y
  unfold out0_4
  simp only [View.ld_unit_zero (S := S256x256) zero2, View.ld_unit_zero (S := S1x256) zero2]
  refine View.canon_apply_of_pieces (blockFn x0 x1 x2 x3) _ ?_ y (cover0_4 _ _ _ _ _ y)
  intro pc hpc x
  simp only [List.mem_cons, List.not_mem_nil, or_false] at hpc
  rcases hpc with rfl | rfl | rfl | rfl | rfl
  all_goals obtain ⟨p, q, rfl⟩ : ∃ (p : Fin 200) (q : Fin 256), x = ix2 p q := ⟨x 0, x 1, eq_ix2 x⟩
  · exact (congrFun (stored4_eq _ _ _ _) _).trans (tile_apply x0 x1 x2 x3 800 _ _ (by omega) p q)
  · exact (congrFun (stored3_eq _ _ _ _) _).trans (tile_apply x0 x1 x2 x3 600 _ _ (by omega) p q)
  · exact (congrFun (stored2_eq _ _ _ _) _).trans (tile_apply x0 x1 x2 x3 400 _ _ (by omega) p q)
  · exact (congrFun (stored1_eq _ _ _ _) _).trans (tile_apply x0 x1 x2 x3 200 _ _ (by omega) p q)
  · exact (congrFun (stored0_eq _ _ _ _) _).trans (tile_apply x0 x1 x2 x3 0 _ _ (by omega) p q)

end Cert.KernelIdeal.Block

end
-- ==== Proof.KernelLayer.lean ====
/-
  The kernel's output array is the layer of its arguments.

  Grid point `t` works on block `b` of 1000 nodes, where `b` is the output window's block index at `t`: the two
  row-blocked inputs (neighbour rows and own features) move with the output along the node axis, while the weights
  and the bias row stay at block 0 — decided once over the 50 points. So row `r` of the block at `t` is node
  `1000·b + r` of the arrays, and what point `t` writes back is block `b` of the layer of the whole arrays. The bias
  reaches the region as a 1 × 256 row, the reshape of the 256 biases. Every node lies in the block of the point
  whose index is its number divided by 1000, so the blocks cover the array and it ends holding the layer.
-/
import proofs.«178276_j64364379897856_2_alg».proof.Proof.Gen.KernelIdeal.Value
import proofs.«178276_j64364379897856_2_alg».proof.Proof.BlockValue
import Idealize.ShloMosaic.Lib.StableHlo.Run
import Idealize.ShloMosaic.Lib.ValueLayout

noncomputable section

open scoped BigOperators

namespace Cert.KernelIdeal.KernelLayer

open Cert.KernelIdeal Cert.KernelIdeal.Gen Cert.KernelIdeal.Block Cert.AggLayer
open Idealize.ShloMosaic Idealize.ShloMosaic.ValueIdx Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-! ## The bias row the region finds -/

/-- The region's fourth operand is the 256 biases laid out as one row. -/
theorem biasRow_eq (c : Dev nD) :
    (V m c main_v0 : S1x256.Idx → EReal) = shapeCast S1x256 (m ((c : Thread nD τ).loc main_arg3)) shapeCasts_S256_S1x256 := by
  dsimp only [Gen.V, Gen.hostOps0]
  after_results
  rfl

/-! ## An entry of a block is an entry of the layer -/

/-- If the four input blocks are block `b` of the row-blocked arrays, the whole weights and the bias row, then row
    `r`, column `q` of the output block is the layer's entry at node `1000·b + r`, output feature `q`. -/
theorem blockEntry_eq_entry (x0 : Vec Ideal S1000x16x256 .f32) (x1 : Vec Ideal S1000x256 .f32) (x2 : Vec Ideal S256x256 .f32)
    (x3 : Vec Ideal S1x256 .f32) (feat : S50000x256.Idx → EReal) (nbr : S50000x16x256.Idx → EReal) (W : S256x256.Idx → EReal)
    (bias : S256.Idx → EReal) (n : Fin 50000) (r : Fin 1000) (q : Fin 256)
    (h1 : ∀ k : Fin 256, x1 (ix2 r k) = feat (ix2 n k))
    (h0 : ∀ (j : Fin 16) (k : Fin 256), x0 (ix3 r j k) = nbr (ix3 n j k))
    (h2 : ∀ k : Fin 256, x2 (ix2 k q) = W (ix2 k q))
    (h3 : x3 (ix2 (0 : Fin 1) q) = bias (ix1 q)) :
    blockEntry x0 x1 x2 x3 r q = entry feat nbr W bias n q := by
  unfold blockEntry entry
  rw [funext h1, funext fun j => funext (h0 j), funext h2, h3]

/-! ## The index maps over the grid -/

/-- The row-blocked inputs move with the output along the node axis; everything else stays at block 0. -/
theorem idx_facts : ∀ t : Fin cfg0.N,
    win0_0.index t (0 : Fin 3) = win0_4.index t (0 : Fin 2) ∧ win0_0.index t (1 : Fin 3) = 0 ∧ win0_0.index t (2 : Fin 3) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) < 50 :=
  (by decide +kernel : ∀ t : Fin grid0.N, _)

/-- Every block of 1000 nodes is some point's. -/
theorem idx_onto : ∀ b : Fin 50, ∃ t : Fin cfg0.N, win0_4.index t = ![b.val, 0] :=
  (by decide +kernel : ∀ b : Fin 50, ∃ t : Fin grid0.N, win0_4.index t = ![b.val, 0])

/-! ## What a point writes back -/

/-- Point `t` writes back block `t` of the layer of the arrays as the region finds them. -/
theorem flushed_eq (c : Dev nD) (t : Fin cfg0.N) :
    (dats m 0 c).flushed 4 t = ((cfg0.win 4).blk t).view.read (Elt Ideal)
      (layer (V m c main_arg0) (V m c main_arg1) (V m c main_arg2) (m ((c : Thread nD τ).loc main_arg3))) := by
  rw [Value.flushed4, out_eq]
  obtain ⟨e00, e01, e02, e10, e11, e20, e21, e30, e31, e41, e4lt⟩ := idx_facts t
  funext y
  obtain ⟨r, q, rfl⟩ : ∃ (r : Fin 1000) (q : Fin 256), y = ix2 r q := ⟨y 0, y 1, eq_ix2 y⟩
  have hr : r.val < 1000 := r.isLt
  have hy : ((cfg0.win 4).blk t).view.emb (ix2 r q)
      = ix2 (⟨win0_4.index t (0 : Fin 2) * 1000 + r.val, by omega⟩ : Fin 50000) q :=
    funext fun a => Fin.ext (by
      match a with
      | ⟨0, _⟩ => show win0_4.index t (0 : Fin 2) * 1000 + 1 * r.val = win0_4.index t (0 : Fin 2) * 1000 + r.val; omega
      | ⟨1, _⟩ => show win0_4.index t (1 : Fin 2) * 256 + 1 * q.val = q.val; omega)
  show blockEntry (iblk m c 0 t) (iblk m c 1 t) (iblk m c 2 t) (iblk m c 3 t) r q
    = layer (V m c main_arg0) (V m c main_arg1) (V m c main_arg2) (m ((c : Thread nD τ).loc main_arg3))
        (((cfg0.win 4).blk t).view.emb (ix2 r q))
  rw [hy, layer_apply]
  refine blockEntry_eq_entry (iblk m c 0 t) (iblk m c 1 t) (iblk m c 2 t) (iblk m c 3 t)
    (V m c main_arg0) (V m c main_arg1) (V m c main_arg2) (m ((c : Thread nD τ).loc main_arg3))
    (⟨win0_4.index t (0 : Fin 2) * 1000 + r.val, by omega⟩ : Fin 50000) r q ?_ ?_ ?_ ?_
  · intro k
    show V m c main_arg0 (((cfg0.win 1).blk t).view.emb (ix2 r k)) = _
    refine congrArg (V m c main_arg0) (funext fun a => Fin.ext ?_)
    match a with
    | ⟨0, _⟩ => show win0_1.index t (0 : Fin 2) * 1000 + 1 * r.val = win0_4.index t (0 : Fin 2) * 1000 + r.val; omega
    | ⟨1, _⟩ => show win0_1.index t (1 : Fin 2) * 256 + 1 * k.val = k.val; omega
  · intro j k
    show V m c main_arg1 (((cfg0.win 0).blk t).view.emb (ix3 r j k)) = _
    refine congrArg (V m c main_arg1) (funext fun a => Fin.ext ?_)
    match a with
    | ⟨0, _⟩ => show win0_0.index t (0 : Fin 3) * 1000 + 1 * r.val = win0_4.index t (0 : Fin 2) * 1000 + r.val; omega
    | ⟨1, _⟩ => show win0_0.index t (1 : Fin 3) * 16 + 1 * j.val = j.val; omega
    | ⟨2, _⟩ => show win0_0.index t (2 : Fin 3) * 256 + 1 * k.val = k.val; omega
  · intro k
    show V m c main_arg2 (((cfg0.win 2).blk t).view.emb (ix2 k q)) = _
    refine congrArg (V m c main_arg2) (funext fun a => Fin.ext ?_)
    match a with
    | ⟨0, _⟩ => show win0_2.index t (0 : Fin 2) * 256 + 1 * k.val = k.val; omega
    | ⟨1, _⟩ => show win0_2.index t (1 : Fin 2) * 256 + 1 * q.val = q.val; omega
  · show (V m c main_v0 : S1x256.Idx → EReal) (((cfg0.win 3).blk t).view.emb (ix2 (0 : Fin 1) q)) = _
    have hb : ((cfg0.win 3).blk t).view.emb (ix2 (0 : Fin 1) q) = ix2 (0 : Fin 1) q :=
      funext fun a => Fin.ext (by
        match a with
        | ⟨0, _⟩ => show win0_3.index t (0 : Fin 2) * 1 + 1 * 0 = 0; omega
        | ⟨1, _⟩ => show win0_3.index t (1 : Fin 2) * 256 + 1 * q.val = q.val; omega)
    rw [hb, biasRow_eq]
    exact shapeCast_a_1a_apply _ _ (0 : Fin 1) q

/-! ## The blocks cover the array -/

/-- A node's entries are in point `t`'s block iff each coordinate is in the block's range on its axis. -/
theorem mem_blk (t : Fin cfg0.N) (i : S50000x256.Idx) :
    i ∈ ((cfg0.win 4).blk t).view.set ↔ ∀ a : Fin 2, win0_4.index t a * S1000x256.size a ≤ (i a).val
      ∧ (i a).val < win0_4.index t a * S1000x256.size a + S1000x256.size a := by
  show i ∈ ((View.whole main_v1).slice (win0_4.rect t)).set ↔ _
  rw [View.set_slice_whole, Rect.mem_set_unit]
  exact Iff.rfl

/-- Node `n` lies in the block of the point whose block index is `n / 1000`. -/
theorem cover (i : S50000x256.Idx) :
    ∃ t : Fin cfg0.N, (cfg0.win 4).flush t = true ∧ i ∈ ((cfg0.win 4).blk t).view.set := by
  have hi0 : (i 0).val < 50000 := (i 0).isLt
  have hi1 : (i 1).val < 256 := (i 1).isLt
  obtain ⟨t, ht⟩ := idx_onto ⟨(i 0).val / 1000, by omega⟩
  have q0 : win0_4.index t (0 : Fin 2) = (i 0).val / 1000 := congrFun ht 0
  have q1 : win0_4.index t (1 : Fin 2) = 0 := congrFun ht 1
  refine ⟨t, flush0_4 t, ?_⟩
  rw [mem_blk]
  intro a
  match a with
  | ⟨0, _⟩ =>
    show win0_4.index t (0 : Fin 2) * 1000 ≤ (i 0).val ∧ (i 0).val < win0_4.index t (0 : Fin 2) * 1000 + 1000
    omega
  | ⟨1, _⟩ =>
    show win0_4.index t (1 : Fin 2) * 256 ≤ (i 1).val ∧ (i 1).val < win0_4.index t (1 : Fin 2) * 256 + 256
    omega

/-! ## The array after the run, and the run -/

/-- After the run the output array holds the layer of the argument arrays. -/
theorem final (c : Dev nD) :
    (dats m 0 c).arrAt 4 cfg0.N = layer (m ((c : Thread nD τ).loc main_arg0)) (m ((c : Thread nD τ).loc main_arg1))
      (m ((c : Thread nD τ).loc main_arg2)) (m ((c : Thread nD τ).loc main_arg3)) := by
  rw [(dats m 0 c).arrAt_eq_of_cover 4
    (layer (V m c main_arg0) (V m c main_arg1) (V m c main_arg2) (m ((c : Thread nD τ).loc main_arg3)))
    (fun t _ => flushed_eq m c t) cover, V_main_arg0, V_main_arg1, V_main_arg2]

/-- Every weakly fair execution of the kernel terminates with the result array at the layer of the arguments and the
    arguments unchanged. -/
theorem run : θ_run defs (onTc (τ := τ) (main (F := Ideal))) ⟨m, fun _ => 0, ρ⟩ fun r => ∀ c : Dev nD,
      r.2.mem ((c : Thread nD τ).loc main_v1) = layer (m ((c : Thread nD τ).loc main_arg0))
        (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KernelLayer

end
-- ==== Proof.lean ====
/-
  A graph layer that adds to each node's features the mean of its sixteen neighbours' rows, applies a dense
  layer and a rectifier:

      out[n, o] = max (Σ_k (features[n, k] + (Σ_j neighbours[n, j, k]) / 16) · W[k, o] + bias[o]) 0.

  The kernel computes it a block of 1000 nodes per grid point, in five chunks of 200 rows, multiplying in a
  narrower float format; the reference computes it on whole arrays. On the extended reals a change of float
  format is the identity and both programs divide the neighbour sum by the same 16 and clip at the same 0, so
  entry by entry both are the one function `Cert.AggLayer.layer` of the four argument arrays (Proof/Layer.lean).
  No law that needs finite inputs is used: the two sides differ only in how the same sums are laid out.

    Proof/RefLayer.lean     the reference's operations, read at an entry, are the layer;
    Proof/ChunkValue.lean   a chunk of the kernel's body, read at an entry, is the layer's entry of its loads;
    Proof/BlockValue.lean   the body's five stores tile one function of the input blocks;
    Proof/KernelLayer.lean  each grid point writes back its block of the layer, the blocks cover the array,
                            so the kernel's run ends with the layer of the arguments.

  The idealization rewrote no operation of the kernel, so there is nothing to preserve beyond the text itself.
-/
import proofs.«178276_j64364379897856_2_alg».proof.Defs
import proofs.«178276_j64364379897856_2_alg».proof.Proof.Gen.Kernel
import proofs.«178276_j64364379897856_2_alg».proof.Proof.Gen.Kernel.Skeleton
import proofs.«178276_j64364379897856_2_alg».proof.Proof.Gen.Kernel.Launch
import proofs.«178276_j64364379897856_2_alg».proof.Proof.Gen.Kernel.Points
import proofs.«178276_j64364379897856_2_alg».proof.Proof.Gen.Kernel.Frame
import proofs.«178276_j64364379897856_2_alg».proof.Proof.Gen.KernelIdeal
import proofs.«178276_j64364379897856_2_alg».proof.Proof.Gen.KernelIdeal.Skeleton
import proofs.«178276_j64364379897856_2_alg».proof.Proof.Gen.KernelIdeal.Launch
import proofs.«178276_j64364379897856_2_alg».proof.Proof.Gen.KernelIdeal.Points
import proofs.«178276_j64364379897856_2_alg».proof.Proof.Gen.KernelIdeal.Frame
import proofs.«178276_j64364379897856_2_alg».proof.Proof.Gen.ReferenceIdeal
import proofs.«178276_j64364379897856_2_alg».proof.Proof.Gen.Pre_finite_inputs
import proofs.«178276_j64364379897856_2_alg».proof.Proof.Gen.KernelIdeal.Value
import proofs.«178276_j64364379897856_2_alg».proof.Proof.Gen.ReferenceIdeal.Run
import proofs.«178276_j64364379897856_2_alg».proof.Proof.Gen.ReferenceIdeal.Read
import proofs.«178276_j64364379897856_2_alg».proof.Proof.RefLayer
import proofs.«178276_j64364379897856_2_alg».proof.Proof.KernelLayer
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the four arguments, both programs end with the layer of those arguments as their
    result: the kernel by its blocks, the reference by its operations read at an entry. -/
theorem algebraic : Cert.algebraic_KernelIdeal_ReferenceIdeal := by
  intro m ρ m' ρ' _ hagree
  refine ⟨_, Cert.KernelIdeal.KernelLayer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefLayer.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
